-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x600000 32) (main_arg2 : FVec F S600000x128 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x256 : Shape := ⟨2, ![1, 256]⟩
abbrev S1x128 : Shape := ⟨2, ![1, 128]⟩
abbrev S5000x128 : Shape := ⟨2, ![5000, 128]⟩
abbrev S128x256 : Shape := ⟨2, ![128, 256]⟩
abbrev S5000x256 : Shape := ⟨2, ![5000, 256]⟩
abbrev S5000 : Shape := ⟨1, ![5000]⟩
abbrev S5000x1 : Shape := ⟨2, ![5000, 1]⟩

abbrev nBuf : Space → Nat
  | .hbm => 22
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S100000x128, .f32⟩
  | .hbm, ⟨13, _⟩ => ⟨S600000x1, .i32⟩
  | .hbm, ⟨14, _⟩ => ⟨S100000x128, .f32⟩
  | .hbm, ⟨15, _⟩ => ⟨S256x256, .bf16⟩
  | .hbm, ⟨16, _⟩ => ⟨S256x128, .bf16⟩
  | .hbm, ⟨17, _⟩ => ⟨S1x256, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S600000_S600000x1_0 : S600000.BroadcastsInDim S600000x1 (![0] : Fin 1 → Fin S600000x1.rank)
  bitsLt_bf16_f32 : FTy.bits .bf16 < FTy.bits .f32
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x256_o0_0_S128x256 : S256x256.Slices ![0, 0] S128x256
  slices_S256x256_o128_0_S128x256 : S256x256.Slices ![128, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000x128_S600000x1_S600000x128_1_0_0_1_wf : ScatterDims.WF S100000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x256 : Shape := ⟨2, ![100000, 256]⟩
abbrev S1x256 : Shape := ⟨2, ![1, 256]⟩
abbrev S1x128 : Shape := ⟨2, ![1, 128]⟩
abbrev S100000 : Shape := ⟨1, ![100000]⟩
abbrev S100000x1 : Shape := ⟨2, ![100000, 1]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S100000x128, .f32⟩
  | .hbm, ⟨13, _⟩ => ⟨S600000x1, .i32⟩
  | .hbm, ⟨14, _⟩ => ⟨S100000x128, .f32⟩
  | .hbm, ⟨15, _⟩ => ⟨S100000x256, .f32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S100000x256, .f32⟩
  | .hbm, ⟨21, _⟩ => ⟨S100000x256, .f32⟩
  | .hbm, ⟨22, _⟩ => ⟨S_, .f32⟩
  | .hbm, ⟨23, _⟩ => ⟨S100000x256, .f32⟩
  | .hbm, ⟨24, _⟩ => ⟨S100000x256, .f32⟩
  | .hbm, ⟨25, _⟩ => ⟨S_, .f32⟩
  | .hbm, ⟨26, _⟩ => ⟨S100000x256, .f32⟩
  | .hbm, ⟨27, _⟩ => ⟨S100000x256, .f32⟩
  | .hbm, ⟨28, _⟩ => ⟨S100000x256, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S600000_S600000x1_0 : S600000.BroadcastsInDim S600000x1 (![0] : Fin 1 → Fin S600000x1.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000x128_S600000x1_S600000x128_1_0_0_1_wf : ScatterDims.WF S100000x128 S600000x1 S600000x128 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RowSpec.lean ====
/-
  The function both programs compute, one output row at a time, on the extended reals.

  A row of the result depends on the same row `x` of the node features, the same row `a` of the aggregated edge
  features, and the weights. Writing `cat = (x, a)` for the 256-long concatenation of the two rows:

    hidden n = Σ_k cat k · W1 k n + b1 n                    (n < 256)
    act n    = hidden n · logistic (hidden n)               (SiLU)
    proj j   = Σ_n act n · W2 n j + b2 j                    (j < 128)
    μ        = (Σ_j proj j) / 128,   d j = proj j − μ,   v = (Σ_j d j · d j) / 128
    out j    = d j · rsqrt (v + ε) · γ j + β j + x j

  One program sums over the 256 columns of `cat` at once; the other sums over the 128 columns of `x` and over the
  128 columns of `a` separately and adds the two. That is a regrouping of one finite sum (`sum_halves`), valid in any
  commutative monoid and so at the infinities as well: no input has to be finite for the two to agree.
  The divisor 128 and ε stay the binary32 words both programs carry; they are never evaluated.
-/
import Idealize.ShloMosaic.PureOps.Ideal
import Idealize.ShloMosaic.Lib.ValueIdx

noncomputable section

namespace Cert.MlpNorm

open Idealize.ShloMosaic Idealize.ShloMosaic.ValueIdx

/-- Column `k` of the first half of the concatenation, as a column of the whole. -/
def lo (k : Fin 128) : Fin 256 := ⟨k.val, by omega⟩
/-- Column `k` of the second half of the concatenation, as a column of the whole. -/
def hi (k : Fin 128) : Fin 256 := ⟨128 + k.val, by omega⟩

/-- A sum over 256 columns is the sum over the first 128 plus the sum over the last 128. -/
theorem sum_halves {M : Type*} [AddCommMonoid M] (f : Fin 256 → M) :
    ∑ k : Fin 256, f k = ∑ k : Fin 128, f (lo k) + ∑ k : Fin 128, f (hi k) :=
  @Fin.sum_univ_add M _ 128 128 f

/-- The first layer before its activation, at hidden unit `n`: the two half sums, then the bias. -/
def hidden (xr ar : Fin 128 → EReal) (W1 : Fin 256 → Fin 256 → EReal) (b1 : Fin 256 → EReal) (n : Fin 256) : EReal :=
  (∑ k : Fin 128, xr k * W1 (lo k) n + ∑ k : Fin 128, ar k * W1 (hi k) n) + b1 n

/-- SiLU: `h · logistic h`, with `logistic h = 1 / (1 + e^(-h))`. -/
def silu (h : EReal) : EReal := h * Ideal.logistic h

/-- The second layer at output column `j`. -/
def proj (s : Fin 256 → EReal) (W2 : Fin 256 → Fin 128 → EReal) (b2 : Fin 128 → EReal) (j : Fin 128) : EReal :=
  (∑ n : Fin 256, s n * W2 n j) + b2 j

/-- The mean of a row of 128 entries: their sum divided by the word for `128.0`. -/
def mean (v : Fin 128 → EReal) : EReal := Ideal.div (∑ j : Fin 128, v j) (Ideal.ofBits .f32 0x43000000#32)

/-- A row less its mean. -/
def centred (h : Fin 128 → EReal) (j : Fin 128) : EReal := h j - mean h

/-- The mean square of the centred row. -/
def variance (h : Fin 128 → EReal) : EReal := mean fun j => centred h j * centred h j

/-- LayerNorm of the row `h` with scale `g` and shift `be`, plus the residual row `xr`. -/
def normed (h g be xr : Fin 128 → EReal) (j : Fin 128) : EReal :=
  ((centred h j * Ideal.rsqrt (variance h + Ideal.ofBits .f32 0x3727C5AC#32)) * g j + be j) + xr j

/-- The second layer's row from the two input rows. -/
def projRow (xr ar : Fin 128 → EReal) (W1 : Fin 256 → Fin 256 → EReal) (b1 : Fin 256 → EReal)
    (W2 : Fin 256 → Fin 128 → EReal) (b2 : Fin 128 → EReal) (j : Fin 128) : EReal :=
  proj (fun n => silu (hidden xr ar W1 b1 n)) W2 b2 j

/-- One row of the result. -/
def rowOut (xr ar : Fin 128 → EReal) (W1 : Fin 256 → Fin 256 → EReal) (b1 : Fin 256 → EReal)
    (W2 : Fin 256 → Fin 128 → EReal) (b2 g be : Fin 128 → EReal) (q : Fin 128) : EReal :=
  normed (projRow xr ar W1 b1 W2 b2) g be xr q

/-! ## The whole result array -/

/-- Entry `(r, q)` of the result from the whole argument arrays: the row function at row `r` of the node features `X`
    and of the aggregated edge features `A`, with the weights read as matrices and vectors. -/
def entry (X A : (⟨2, ![100000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 g be : (⟨1, ![128]⟩ : Shape).Idx → EReal) (r : Fin 100000) (q : Fin 128) : EReal :=
  rowOut (fun k => X (ix2 r k)) (fun k => A (ix2 r k)) (fun k n => W1 (ix2 k n)) (fun n => b1 (ix1 n))
    (fun n j => W2 (ix2 n j)) (fun j => b2 (ix1 j)) (fun j => g (ix1 j)) (fun j => be (ix1 j)) q

/-- The result array: entry `i` is `entry` at `i`'s row and column. -/
def result (X A : (⟨2, ![100000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 g be : (⟨1, ![128]⟩ : Shape).Idx → EReal) : (⟨2, ![100000, 128]⟩ : Shape).Idx → EReal :=
  fun i => entry X A W1 b1 W2 b2 g be (i 0) (i 1)

theorem result_ix2 (X A : (⟨2, ![100000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 g be : (⟨1, ![128]⟩ : Shape).Idx → EReal) (r : Fin 100000) (q : Fin 128) :
    result X A W1 b1 W2 b2 g be (ix2 r q) = entry X A W1 b1 W2 b2 g be r q := rfl

end Cert.MlpNorm

end
-- ==== Proof.TileReads.lean ====
/-
  What the kernel's region finds in each window's array, and each window's block read at an index.

  Before the region the host computes the aggregated edge features (a scatter-sum of the edge features by
  destination node, into zeros), rounds the two weight matrices to bf16 (the identity on the extended reals) and
  gives the four vectors a leading unit axis. Grid point `t` stages rows `5000·t … 5000·t + 4999` of the node
  features and of the aggregated features, and the whole of every weight; it writes back the same rows of the result.
-/
import proofs.«111739_j6133213298854_2_alg».proof.Proof.Gen.KernelIdeal.Value
import proofs.«111739_j6133213298854_2_alg».proof.Proof.RowSpec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.StableHlo Idealize.ShloMosaic.ValueIdx Cert.MlpNorm
open Idealize.ShloMosaic.Pipeline (Dat)

variable (m : (ℓ : Loc nD τ sig) → Buf (Elt Ideal) ℓ)

/-! ## The arrays at region entry -/

/-- The aggregated edge features: the edge features summed into zeros at the destination node of each edge. -/
def agg (x1 : (⟨S2x600000, .i32⟩ : BufTy).Contents (Elt Ideal)) (x2 : (⟨S600000x128, .f32⟩ : BufTy).Contents (Elt Ideal)) :
    (⟨S100000x128, .f32⟩ : BufTy).Contents (Elt Ideal) :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0
      (shapeCast S600000 (extractStridedSlice S1x600000 ![0, 0] x1 slices_S2x600000_S1x600000_0_0) shapeCasts_S1x600000_S600000))
    x2

theorem V_agg (c : Dev nD) :
    (V m c main_v4 : S100000x128.Idx → EReal) = agg (m ((c : Thread nD τ).loc main_arg1)) (m ((c : Thread nD τ).loc main_arg2)) := by
  dsimp only [V, hostOps0]; after_results; rfl

theorem V_w1 (c : Dev nD) :
    (V m c main_v5 : S256x256.Idx → EReal) = (truncf (F := Ideal) .bf16 ((m ((c : Thread nD τ).loc main_arg3)) : FVec Ideal S256x256 .f32) bitsLt_bf16_f32 : FVec Ideal S256x256 .bf16) := by
  dsimp only [V, hostOps0]; after_results

theorem V_w2 (c : Dev nD) :
    (V m c main_v6 : S256x128.Idx → EReal) = (truncf (F := Ideal) .bf16 ((m ((c : Thread nD τ).loc main_arg5)) : FVec Ideal S256x128 .f32) bitsLt_bf16_f32 : FVec Ideal S256x128 .bf16) := by
  dsimp only [V, hostOps0]; after_results

theorem V_b1 (c : Dev nD) :
    (V m c main_v7 : S1x256.Idx → EReal) = shapeCast S1x256 (m ((c : Thread nD τ).loc main_arg4)) shapeCasts_S256_S1x256 := by
  dsimp only [V, hostOps0]; after_results; rfl

theorem V_b2 (c : Dev nD) :
    (V m c main_v8 : S1x128.Idx → EReal) = shapeCast S1x128 (m ((c : Thread nD τ).loc main_arg6)) shapeCasts_S128_S1x128 := by
  dsimp only [V, hostOps0]; after_results; rfl

theorem V_gamma (c : Dev nD) :
    (V m c main_v9 : S1x128.Idx → EReal) = shapeCast S1x128 (m ((c : Thread nD τ).loc main_arg7)) shapeCasts_S128_S1x128 := by
  dsimp only [V, hostOps0]; after_results; rfl

theorem V_beta (c : Dev nD) :
    (V m c main_v10 : S1x128.Idx → EReal) = shapeCast S1x128 (m ((c : Thread nD τ).loc main_arg8)) shapeCasts_S128_S1x128 := by
  dsimp only [V, hostOps0]; after_results; rfl

/-! ## The index maps, decided over the twenty grid points -/

/-- The tiled windows (node features, aggregated features, result) take block `t` of the rows at point `t`; every weight's window
    is its one whole block. -/
theorem idx_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0)

/-- Row `p` of grid point `t`'s tile, as a row of the whole array. -/
def rowOf (t : Fin cfg0.N) (p : Fin 5000) : Fin 100000 :=
  ⟨t.val * 5000 + p.val, by have ht : t.val < 20 := t.isLt; have hp := p.isLt; omega⟩

/-! ## Each window's block read at an index -/

/-- Row `p` of the node-feature tile at point `t` is row `5000·t + p` of the node features. -/
theorem x_at (c : Dev nD) (t : Fin cfg0.N) (p : Fin 5000) (k : Fin 128) :
    iblk m c 0 t (ix2 p k) = (m ((c : Thread nD τ).loc main_arg0)) (ix2 (rowOf t p) k) := by
  show V m c main_arg0 (((cfg0.win 0).blk t).view.emb (ix2 p k)) = _
  have he : ((cfg0.win 0).blk t).view.emb (ix2 p k) = ix2 (rowOf t p) k := by
    obtain ⟨e00, e01, e10, e11, e20, e21, e30, e31, e40, e41, e50, e51, e60, e61, e70, e71, e80, e81⟩ := idx_maps t
    funext a; apply Fin.ext
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  rw [he, V_main_arg0]

/-- Row `p` of the aggregated-feature tile at point `t` is row `5000·t + p` of the aggregated edge features. -/
theorem agg_at (c : Dev nD) (t : Fin cfg0.N) (p : Fin 5000) (k : Fin 128) :
    iblk m c 1 t (ix2 p k) = agg (m ((c : Thread nD τ).loc main_arg1)) (m ((c : Thread nD τ).loc main_arg2)) (ix2 (rowOf t p) k) := by
  show V m c main_v4 (((cfg0.win 1).blk t).view.emb (ix2 p k)) = _
  have he : ((cfg0.win 1).blk t).view.emb (ix2 p k) = ix2 (rowOf t p) k := by
    obtain ⟨e00, e01, e10, e11, e20, e21, e30, e31, e40, e41, e50, e51, e60, e61, e70, e71, e80, e81⟩ := idx_maps t
    funext a; apply Fin.ext
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  rw [he, V_agg]

/-- The first weight matrix is staged whole; its bf16 rounding is the identity here. -/
theorem w1_at (c : Dev nD) (t : Fin cfg0.N) (k : Fin 256) (n : Fin 256) :
    iblk m c 2 t (ix2 k n) = (m ((c : Thread nD τ).loc main_arg3)) (ix2 k n) := by
  show V m c main_v5 (((cfg0.win 2).blk t).view.emb (ix2 k n)) = _
  have he : ((cfg0.win 2).blk t).view.emb (ix2 k n) = (ix2 k n) := by
    obtain ⟨e00, e01, e10, e11, e20, e21, e30, e31, e40, e41, e50, e51, e60, e61, e70, e71, e80, e81⟩ := idx_maps t
    funext a; apply Fin.ext
    match a with
    | ⟨0, _⟩ => show win0_2.index t (0 : Fin 2) * 256 + 1 * k.val = k.val; rw [e20]; omega
    | ⟨1, _⟩ => show win0_2.index t (1 : Fin 2) * 256 + 1 * n.val = n.val; rw [e21]; omega
  rw [he, V_w1]
  rfl

/-- The first bias, staged as one row. -/
theorem b1_at (c : Dev nD) (t : Fin cfg0.N) (n : Fin 256) :
    iblk m c 3 t (ix2 (0 : Fin 1) n) = (m ((c : Thread nD τ).loc main_arg4)) (ix1 n) := by
  show V m c main_v7 (((cfg0.win 3).blk t).view.emb (ix2 (0 : Fin 1) n)) = _
  have he : ((cfg0.win 3).blk t).view.emb (ix2 (0 : Fin 1) n) = (ix2 (0 : Fin 1) n) := by
    obtain ⟨e00, e01, e10, e11, e20, e21, e30, e31, e40, e41, e50, e51, e60, e61, e70, e71, e80, e81⟩ := idx_maps t
    funext a; apply Fin.ext
    match a with
    | ⟨0, _⟩ => show win0_3.index t (0 : Fin 2) * 1 + 1 * (0 : Fin 1).val = (0 : Fin 1).val; rw [e30]; omega
    | ⟨1, _⟩ => show win0_3.index t (1 : Fin 2) * 256 + 1 * n.val = n.val; rw [e31]; omega
  rw [he, V_b1]
  exact shapeCast_a_1a_apply _ _ 0 n

/-- The second weight matrix is staged whole; its bf16 rounding is the identity here. -/
theorem w2_at (c : Dev nD) (t : Fin cfg0.N) (n : Fin 256) (j : Fin 128) :
    iblk m c 4 t (ix2 n j) = (m ((c : Thread nD τ).loc main_arg5)) (ix2 n j) := by
  show V m c main_v6 (((cfg0.win 4).blk t).view.emb (ix2 n j)) = _
  have he : ((cfg0.win 4).blk t).view.emb (ix2 n j) = (ix2 n j) := by
    obtain ⟨e00, e01, e10, e11, e20, e21, e30, e31, e40, e41, e50, e51, e60, e61, e70, e71, e80, e81⟩ := idx_maps t
    funext a; apply Fin.ext
    match a with
    | ⟨0, _⟩ => show win0_4.index t (0 : Fin 2) * 256 + 1 * n.val = n.val; rw [e40]; omega
    | ⟨1, _⟩ => show win0_4.index t (1 : Fin 2) * 128 + 1 * j.val = j.val; rw [e41]; omega
  rw [he, V_w2]
  rfl

/-- The second bias, staged as one row. -/
theorem b2_at (c : Dev nD) (t : Fin cfg0.N) (j : Fin 128) :
    iblk m c 5 t (ix2 (0 : Fin 1) j) = (m ((c : Thread nD τ).loc main_arg6)) (ix1 j) := by
  show V m c main_v8 (((cfg0.win 5).blk t).view.emb (ix2 (0 : Fin 1) j)) = _
  have he : ((cfg0.win 5).blk t).view.emb (ix2 (0 : Fin 1) j) = (ix2 (0 : Fin 1) j) := by
    obtain ⟨e00, e01, e10, e11, e20, e21, e30, e31, e40, e41, e50, e51, e60, e61, e70, e71, e80, e81⟩ := idx_maps t
    funext a; apply Fin.ext
    match a with
    | ⟨0, _⟩ => show win0_5.index t (0 : Fin 2) * 1 + 1 * (0 : Fin 1).val = (0 : Fin 1).val; rw [e50]; omega
    | ⟨1, _⟩ => show win0_5.index t (1 : Fin 2) * 128 + 1 * j.val = j.val; rw [e51]; omega
  rw [he, V_b2]
  exact shapeCast_a_1a_apply _ _ 0 j

/-- The LayerNorm scale, staged as one row. -/
theorem gamma_at (c : Dev nD) (t : Fin cfg0.N) (j : Fin 128) :
    iblk m c 6 t (ix2 (0 : Fin 1) j) = (m ((c : Thread nD τ).loc main_arg7)) (ix1 j) := by
  show V m c main_v9 (((cfg0.win 6).blk t).view.emb (ix2 (0 : Fin 1) j)) = _
  have he : ((cfg0.win 6).blk t).view.emb (ix2 (0 : Fin 1) j) = (ix2 (0 : Fin 1) j) := by
    obtain ⟨e00, e01, e10, e11, e20, e21, e30, e31, e40, e41, e50, e51, e60, e61, e70, e71, e80, e81⟩ := idx_maps t
    funext a; apply Fin.ext
    match a with
    | ⟨0, _⟩ => show win0_6.index t (0 : Fin 2) * 1 + 1 * (0 : Fin 1).val = (0 : Fin 1).val; rw [e60]; omega
    | ⟨1, _⟩ => show win0_6.index t (1 : Fin 2) * 128 + 1 * j.val = j.val; rw [e61]; omega
  rw [he, V_gamma]
  exact shapeCast_a_1a_apply _ _ 0 j

/-- The LayerNorm shift, staged as one row. -/
theorem beta_at (c : Dev nD) (t : Fin cfg0.N) (j : Fin 128) :
    iblk m c 7 t (ix2 (0 : Fin 1) j) = (m ((c : Thread nD τ).loc main_arg8)) (ix1 j) := by
  show V m c main_v10 (((cfg0.win 7).blk t).view.emb (ix2 (0 : Fin 1) j)) = _
  have he : ((cfg0.win 7).blk t).view.emb (ix2 (0 : Fin 1) j) = (ix2 (0 : Fin 1) j) := by
    obtain ⟨e00, e01, e10, e11, e20, e21, e30, e31, e40, e41, e50, e51, e60, e61, e70, e71, e80, e81⟩ := idx_maps t
    funext a; apply Fin.ext
    match a with
    | ⟨0, _⟩ => show win0_7.index t (0 : Fin 2) * 1 + 1 * (0 : Fin 1).val = (0 : Fin 1).val; rw [e70]; omega
    | ⟨1, _⟩ => show win0_7.index t (1 : Fin 2) * 128 + 1 * j.val = j.val; rw [e71]; omega
  rw [he, V_beta]
  exact shapeCast_a_1a_apply _ _ 0 j

end Cert.KernelIdeal.RowValue

end
-- ==== Proof.KernelOps.lean ====
/-
  The kernel body's operations that are not elementwise, each read at one index of its result, over the body's
  literal shapes: a bias row or a statistics column spread over the tile, a row sum kept as a column, the two
  halves of the first weight matrix, and the three matrix products as sums over the contracted axis.
-/
import proofs.«111739_j6133213298854_2_alg».proof.Proof.Gen.KernelIdeal.Skeleton
import proofs.«111739_j6133213298854_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.MlpNorm

/-! ## Rows and columns spread over the tile -/

/-- A `[1, 256]` row spread over the tile's 5000 rows reads, at `(p, n)`, the row at `n`. -/
theorem row256_at (v : FVec Ideal S1x256 .f32) (p : Fin 5000) (n : Fin 256) :
    broadcastTo S5000x256 v broadcasts_S1x256_S5000x256 (ix2 p n) = v (ix2 (0 : Fin 1) n) :=
  broadcastTo_1b_ab_apply v _ p n

/-- A `[1, 128]` row spread over the tile's 5000 rows reads, at `(p, q)`, the row at `q`. -/
theorem row128_at (v : FVec Ideal S1x128 .f32) (p : Fin 5000) (q : Fin 128) :
    broadcastTo S5000x128 v broadcasts_S1x128_S5000x128 (ix2 p q) = v (ix2 (0 : Fin 1) q) :=
  broadcastTo_1b_ab_apply v _ p q

/-- A `[5000, 1]` column spread over the 128 lanes reads, at `(p, q)`, the column at row `p`. -/
theorem col_at (v : FVec Ideal S5000x1 .f32) (p : Fin 5000) (q : Fin 128) :
    broadcastTo S5000x128 v broadcasts_S5000x1_S5000x128 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- A `[5000]` vector kept as a `[5000, 1]` column reads, at `(p, 0)`, the vector at `p`. -/
theorem keep_at (v : FVec Ideal S5000 .f32) (p : Fin 5000) :
    shapeCast S5000x1 v shapeCasts_S5000_S5000x1 (ix2 p (0 : Fin 1)) = v (ix1 p) :=
  shapeCast_apply v _ _ _ (by
    rw [Shape.rowMajor_val_two, Shape.rowMajor_val_one]
    show p.val = p.val * 1 + 0
    omega)

/-- The sum over the 128 lanes of a tile, at row `p`. -/
theorem laneSum_at (v : FVec Ideal S5000x128 .f32) (p : Fin 5000) :
    multiReduction .add [1] S5000 v 0x00000000#32 reduces_S5000x128_S5000 (.inl rfl) rfl (ix1 p)
      = ∑ k : Fin 128, v (ix2 p k) := by
  refine (Ideal.multiReduction_add_single v 0x00000000#32 reduces_S5000x128_S5000 (.inl rfl) rfl (ix1 p)).trans ?_
  refine Finset.sum_congr rfl fun k _ => congrArg v (funext fun a => Fin.ext ?_)
  match a with
  | ⟨0, _⟩ => rfl
  | ⟨1, _⟩ => rfl

/-! ## The two halves of the first weight matrix -/

/-- Rows `0 … 127` of a `[256, 256]` matrix. -/
theorem top_at (v : FVec Ideal S256x256 .bf16) (k : Fin 128) (n : Fin 256) :
    extractStridedSlice S128x256 ![0, 0] v slices_S256x256_o0_0_S128x256 (ix2 k n) = v (ix2 (lo k) n) :=
  slice2_axis0_apply 0 v _ k n (lo k) (by show k.val = 0 + k.val; omega)

/-- Rows `128 … 255` of a `[256, 256]` matrix. -/
theorem bottom_at (v : FVec Ideal S256x256 .bf16) (k : Fin 128) (n : Fin 256) :
    extractStridedSlice S128x256 ![128, 0] v slices_S256x256_o128_0_S128x256 (ix2 k n) = v (ix2 (hi k) n) :=
  slice2_axis0_apply 128 v _ k n (hi k) rfl

/-! ## The matrix products, into a zero accumulator, as sums over the contracted axis -/

private theorem mmIn_l0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
private theorem mmIn_l1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
private theorem mmIn_r0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
private theorem mmIn_r1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A `[5000, 128] × [128, 256]` product at `(p, n)`: the sum over the 128 contracted columns. -/
theorem mmIn_at (l : FVec Ideal S5000x128 .bf16) (r : FVec Ideal S128x256 .bf16) (p : Fin 5000) (n : Fin 256) :
    matmul dot_S5000x128_S128x256_S5000x256_1_0_0_1_n_n none l r (constant S5000x256 .f32 0x00000000#32) (ix2 p n)
      = ∑ k : Fin 128, l (ix2 p k) * r (ix2 k n) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p n) ((contrEquiv1 dot_S5000x128_S128x256_S5000x256_1_0_0_1_n_n 128 rfl rfl).symm k) = ix2 p k := funext fun a => Fin.ext (by
    match a with
    | ⟨0, _⟩ => exact mmIn_l0 _ _
    | ⟨1, _⟩ => exact (mmIn_l1 _ _).trans hk)
  have er : dot_S5000x128_S128x256_S5000x256_1_0_0_1_n_n.rhsIdx (ix2 p n) ((contrEquiv1 dot_S5000x128_S128x256_S5000x256_1_0_0_1_n_n 128 rfl rfl).symm k) = ix2 k n := funext fun a => Fin.ext (by
    match a with
    | ⟨0, _⟩ => exact (mmIn_r0 _ _).trans hk
    | ⟨1, _⟩ => exact mmIn_r1 _ _)
  rw [el, er]

private theorem mmOut_l0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
private theorem mmOut_l1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
private theorem mmOut_r0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
private theorem mmOut_r1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A `[5000, 256] × [256, 128]` product at `(p, j)`: the sum over the 256 contracted columns. -/
theorem mmOut_at (l : FVec Ideal S5000x256 .bf16) (r : FVec Ideal S256x128 .bf16) (p : Fin 5000) (n : Fin 128) :
    matmul dot_S5000x256_S256x128_S5000x128_1_0_0_1_n_n none l r (constant S5000x128 .f32 0x00000000#32) (ix2 p n)
      = ∑ k : Fin 256, l (ix2 p k) * r (ix2 k n) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p n) ((contrEquiv1 dot_S5000x256_S256x128_S5000x128_1_0_0_1_n_n 256 rfl rfl).symm k) = ix2 p k := funext fun a => Fin.ext (by
    match a with
    | ⟨0, _⟩ => exact mmOut_l0 _ _
    | ⟨1, _⟩ => exact (mmOut_l1 _ _).trans hk)
  have er : dot_S5000x256_S256x128_S5000x128_1_0_0_1_n_n.rhsIdx (ix2 p n) ((contrEquiv1 dot_S5000x256_S256x128_S5000x128_1_0_0_1_n_n 256 rfl rfl).symm k) = ix2 k n := funext fun a => Fin.ext (by
    match a with
    | ⟨0, _⟩ => exact (mmOut_r0 _ _).trans hk
    | ⟨1, _⟩ => exact mmOut_r1 _ _)
  rw [el, er]

end Cert.KernelIdeal.RowValue

end
-- ==== Proof.KernelRow.lean ====
/-
  What the kernel body stores at entry `(p, q)` of its tile, as the row function of RowSpec applied to row `p` of the
  two loaded tiles and to the resident weights: the second layer's row first, then its mean, the centred row, the
  variance, and the normalised row with the residual added.
-/
import proofs.«111739_j6133213298854_2_alg».proof.Proof.KernelOps

noncomputable section

namespace Cert.KernelIdeal.RowValue

open Cert.KernelIdeal Cert.KernelIdeal.Gen Idealize.ShloMosaic Idealize.ShloMosaic.ValueIdx Cert.MlpNorm

theorem logistic_at {s : Shape} {φ : FTy} (a : FVec Ideal s φ) (i : s.Idx) : logistic a i = Ideal.logistic (a i) := rfl
theorem rsqrt_at {s : Shape} {φ : FTy} (a : FVec Ideal s φ) (i : s.Idx) : rsqrt a i = Ideal.rsqrt (a i) := rfl

/-- The second layer at `(p, j)`: both halves of the first product, the bias, SiLU, the second product, the bias. -/
theorem pay2_at (x0 x1 : Vec Ideal S5000x128 .f32) (x2 : Vec Ideal S256x256 .bf16) (x3 : Vec Ideal S1x256 .f32) (x4 : Vec Ideal S256x128 .bf16) (x5 : Vec Ideal S1x128 .f32) (p : Fin 5000) (j : Fin 128) :
    k0_pay2 x0 x1 x2 x3 x4 x5 (ix2 p j)
      = projRow (fun k => x0 (ix2 p k)) (fun k => x1 (ix2 p k)) (fun k n => x2 (ix2 k n)) (fun n => x3 (ix2 (0 : Fin 1) n))
        (fun n j => x4 (ix2 n j)) (fun j => x5 (ix2 (0 : Fin 1) j)) j := by
  unfold k0_pay2 projRow proj MlpNorm.hidden silu
  simp only [addf_apply, mulf_apply, truncf_apply, logistic_at, Idealize.ShloMosaic.shapeCast_self, row256_at, row128_at,
    mmIn_at, mmOut_at, top_at, bottom_at]

/-- The row mean, kept as a column. -/
theorem pay3_at (x0 x1 : Vec Ideal S5000x128 .f32) (x2 : Vec Ideal S256x256 .bf16) (x3 : Vec Ideal S1x256 .f32) (x4 : Vec Ideal S256x128 .bf16) (x5 : Vec Ideal S1x128 .f32) (p : Fin 5000) :
    k0_pay3 x0 x1 x2 x3 x4 x5 (ix2 p (0 : Fin 1)) = mean fun j => k0_pay2 x0 x1 x2 x3 x4 x5 (ix2 p j) := by
  unfold k0_pay3 mean
  simp only [divf_apply, broadcast_apply, keep_at]
  exact congrArg (fun s => Ideal.div s _) (laneSum_at _ p)

/-- The centred row. -/
theorem pay5_at (x0 x1 : Vec Ideal S5000x128 .f32) (x2 : Vec Ideal S256x256 .bf16) (x3 : Vec Ideal S1x256 .f32) (x4 : Vec Ideal S256x128 .bf16) (x5 : Vec Ideal S1x128 .f32) (p : Fin 5000) (j : Fin 128) :
    k0_pay5 x0 x1 x2 x3 x4 x5 (ix2 p j) = centred (fun j' => k0_pay2 x0 x1 x2 x3 x4 x5 (ix2 p j')) j := by
  unfold k0_pay5 centred
  simp only [subf_apply, col_at, pay3_at]

/-- The row variance, kept as a column. -/
theorem pay4_at (x0 x1 : Vec Ideal S5000x128 .f32) (x2 : Vec Ideal S256x256 .bf16) (x3 : Vec Ideal S1x256 .f32) (x4 : Vec Ideal S256x128 .bf16) (x5 : Vec Ideal S1x128 .f32) (p : Fin 5000) :
    k0_pay4 x0 x1 x2 x3 x4 x5 (ix2 p (0 : Fin 1)) = variance fun j => k0_pay2 x0 x1 x2 x3 x4 x5 (ix2 p j) := by
  unfold k0_pay4 variance
  simp only [divf_apply, broadcast_apply, keep_at]
  refine (congrArg (fun s => Ideal.div s _) (laneSum_at _ p)).trans ?_
  unfold mean centred
  simp only [mulf_apply, subf_apply, col_at, pay3_at]
  rfl

/-- The stored value from the centred row, the variance column, ε, the scale and shift rows and the residual tile. -/
theorem pay1_at (v0 : Vec Ideal S5000x128 .f32) (v36 : FVec Ideal S5000x1 .f32) (v38 : FVec Ideal S5000x128 .f32) (e : Ideal .f32)
    (v44 v48 : Vec Ideal S1x128 .f32) (p : Fin 5000) (q : Fin 128) :
    k0_pay1 v0 v36 v38 e v44 v48 (ix2 p q)
      = ((v38 (ix2 p q) * Ideal.rsqrt (v36 (ix2 p (0 : Fin 1)) + e)) * v44 (ix2 (0 : Fin 1) q) + v48 (ix2 (0 : Fin 1) q)) + v0 (ix2 p q) := by
  unfold k0_pay1
  simp only [addf_apply, mulf_apply, rsqrt_at, broadcast_apply, Idealize.ShloMosaic.shapeCast_self, row128_at, col_at]

/-- ENTRY `(p, q)` OF THE STORED TILE is the row function of row `p` of the two loaded tiles and the weights. -/
theorem stored_at (x0 x1 : Vec Ideal S5000x128 .f32) (x2 : Vec Ideal S256x256 .bf16) (x3 : Vec Ideal S1x256 .f32) (x4 : Vec Ideal S256x128 .bf16) (x5 : Vec Ideal S1x128 .f32) (x6 x7 : Vec Ideal S1x128 .f32) (p : Fin 5000) (q : Fin 128) :
    k0_pay1 x0 (k0_pay4 x0 x1 x2 x3 x4 x5) (k0_pay5 x0 x1 x2 x3 x4 x5) (Scalar.ofBits .f32 0x3727C5AC#32) x6 x7 (ix2 p q)
      = rowOut (fun k => x0 (ix2 p k)) (fun k => x1 (ix2 p k)) (fun k n => x2 (ix2 k n)) (fun n => x3 (ix2 (0 : Fin 1) n))
        (fun n j => x4 (ix2 n j)) (fun j => x5 (ix2 (0 : Fin 1) j))
          (fun j => x6 (ix2 (0 : Fin 1) j)) (fun j => x7 (ix2 (0 : Fin 1) j)) q := by
  rw [pay1_at, pay4_at, pay5_at]
  unfold rowOut normed
  simp only [pay2_at]
  rfl

end Cert.KernelIdeal.RowValue

end
-- ==== Proof.Blocks.lean ====
/-
  From tiles to the array. Grid point `t` writes back, as rows `5000·t … 5000·t + 4999` of the result, exactly those rows
  of the result function of the argument arrays: entry `(p, q)` of what the body stored is the row function of row `p` of
  its two tiles, which are rows `5000·t + p` of the node features and of the aggregated features. The twenty blocks cover
  the `100000` rows (row `r` lies in block `r / 5000`), so after the run the result array is that function everywhere.
-/
import proofs.«111739_j6133213298854_2_alg».proof.Proof.TileReads
import proofs.«111739_j6133213298854_2_alg».proof.Proof.KernelRow

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Cert.MlpNorm
open Idealize.ShloMosaic.Pipeline (Dat)

variable (m : (ℓ : Loc nD τ sig) → Buf (Elt Ideal) ℓ) (ρ : Dev nD → PrngReg)

/-- The result array as one function of the argument arrays on core `c`. -/
def kernelResult (c : Dev nD) : S100000x128.Idx → EReal :=
  result (m ((c : Thread nD τ).loc main_arg0)) (agg (m ((c : Thread nD τ).loc main_arg1)) (m ((c : Thread nD τ).loc main_arg2))) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

theorem zero_offsets : (![0, 0] : Fin 2 → Nat) = fun _ => 0 := funext fun a => by fin_cases a <;> rfl

/-- WHAT POINT `t` WRITES BACK is block `t` of the result function. -/
theorem flushed_eq (c : Dev nD) (t : Fin cfg0.N) :
    (dats m 0 c).flushed 8 t = ((cfg0.win 8).blk t).view.read (Elt Ideal) (kernelResult m c) := by
  rw [Value.flushed8]
  unfold out0_8
  rw [View.canon_unit_zero zero_offsets]
  simp only [View.ld_unit_zero (S := S5000x128) zero_offsets, View.ld_unit_zero (S := S256x256) zero_offsets,
    View.ld_unit_zero (S := S1x256) zero_offsets, View.ld_unit_zero (S := S256x128) zero_offsets,
    View.ld_unit_zero (S := S1x128) zero_offsets]
  funext j
  obtain ⟨p, q, rfl⟩ : ∃ (p : Fin 5000) (q : Fin 128), j = ix2 p q := ⟨j 0, j 1, eq_ix2 j⟩
  show k0_pay1 (iblk m c 0 t) (k0_pay4 (iblk m c 0 t) (iblk m c 1 t) (iblk m c 2 t) (iblk m c 3 t) (iblk m c 4 t) (iblk m c 5 t)) (k0_pay5 (iblk m c 0 t) (iblk m c 1 t) (iblk m c 2 t) (iblk m c 3 t) (iblk m c 4 t) (iblk m c 5 t)) (Scalar.ofBits .f32 0x3727C5AC#32) (iblk m c 6 t) (iblk m c 7 t) (ix2 p q)
      = kernelResult m c (((cfg0.win 8).blk t).view.emb (ix2 p q))
  have he : ((cfg0.win 8).blk t).view.emb (ix2 p q) = ix2 (rowOf t p) q := by
    obtain ⟨-, -, -, -, -, -, -, -, -, -, -, -, -, -, -, -, e80, e81⟩ := idx_maps t
    funext a; apply Fin.ext
    match a with
    | ⟨0, _⟩ => show win0_8.index t (0 : Fin 2) * 5000 + 1 * p.val = t.val * 5000 + p.val; rw [e80]; omega
    | ⟨1, _⟩ => show win0_8.index t (1 : Fin 2) * 128 + 1 * q.val = q.val; rw [e81]; omega
  rw [he]
  refine (stored_at (iblk m c 0 t) (iblk m c 1 t) (iblk m c 2 t) (iblk m c 3 t) (iblk m c 4 t) (iblk m c 5 t) (iblk m c 6 t) (iblk m c 7 t) p q).trans ?_
  unfold kernelResult
  rw [result_ix2]
  unfold entry
  simp only [x_at, agg_at, w1_at, b1_at, w2_at, b2_at, gamma_at, beta_at]

/-- An index of the array is in point `t`'s block iff each coordinate is in the block's range on its axis. -/
theorem mem_blk (t : Fin cfg0.N) (i : S100000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v11).slice (win0_8.rect t)).set ↔ _
  rw [View.set_slice_whole, Rect.mem_set_unit]
  exact Iff.rfl

/-- Every block of rows is some point's. -/
theorem block_onto : ∀ b : Fin 20, ∃ t : Fin cfg0.N, win0_8.index t (0 : Fin 2) = b.val ∧ win0_8.index t (1 : Fin 2) = 0 :=
  (by decide +kernel : ∀ b : Fin 20, ∃ t : Fin grid0.N, win0_8.index t (0 : Fin 2) = b.val ∧ win0_8.index t (1 : Fin 2) = 0)

/-- THE BLOCKS COVER THE ARRAY: row `r` lies in block `r / 5000`. -/
theorem cover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, e0, e1⟩ := block_onto ⟨(i 0).val / 5000, by omega⟩
  have e0' : win0_8.index t (0 : Fin 2) = (i 0).val / 5000 := e0
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-- THE RESULT ARRAY after the run is the result function of the argument arrays. -/
theorem final (c : Dev nD) : (dats m 0 c).arrAt 8 cfg0.N = kernelResult m c :=
  (dats m 0 c).arrAt_eq_of_cover 8 (kernelResult m c) (fun t _ => flushed_eq m c t) cover

/-- The kernel's run: every weakly fair execution ends with the result array at the result function of the arguments,
    the arguments unchanged. -/
theorem run : θ_run defs (onTc (τ := τ) (main (F := Ideal))) ⟨m, fun _ => 0, ρ⟩ fun r => ∀ c : Dev nD,
      r.2.mem ((c : Thread nD τ).loc main_v11) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.RowValue

end
-- ==== Proof.RefRow.lean ====
/-
  The reference's result at entry `(r, q)`, as the row function of RowSpec applied to row `r` of the node features,
  row `r` of the aggregated edge features, and the weights. The reference multiplies the 256-column concatenation of
  the two rows by the whole first weight matrix; `sum_halves` splits that sum into the part over the node-feature
  columns and the part over the aggregated columns. Its SiLU is spelt `h · (1 / (1 + e^(-h)))`, which is
  `h · logistic h` once the word for `1.0` is read as the number one.
-/
import proofs.«111739_j6133213298854_2_alg».proof.Proof.Gen.ReferenceIdeal.Read
import proofs.«111739_j6133213298854_2_alg».proof.Proof.RowSpec
import Idealize.ShloMosaic.Lib.ValueIdx
import Idealize.ShloMosaic.Lib.Pipeline.Value
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.TcCoe Idealize.SL.Sem Idealize.ShloMosaic.ValueIdx Cert.MlpNorm

variable (x0 : (⟨S100000x128, .f32⟩ : BufTy).Contents (Elt Ideal)) (x1 : (⟨S2x600000, .i32⟩ : BufTy).Contents (Elt Ideal))
  (x2 : (⟨S600000x128, .f32⟩ : BufTy).Contents (Elt Ideal)) (x3 : (⟨S256x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal)) (x7 : (⟨S128, .f32⟩ : BufTy).Contents (Elt Ideal)) (x8 : (⟨S128, .f32⟩ : BufTy).Contents (Elt Ideal))

/-- The binary32 word `0x3F800000` is the number one. -/
theorem one_f32 : Ideal.ofBits .f32 0x3F800000#32 = 1 := IdealRules.sign_bit.ideal_onePat .f32

/-! ## The concatenated row -/

/-- Column `k` of the first half of the concatenation is the node features' column `k`. -/
theorem cat_lo (r : Fin 100000) (k : Fin 128) :
    val_main_v5 (F := Ideal) x0 x1 x2 (ix2 r (lo k)) = x0 (ix2 r k) := by
  unfold val_main_v5
  exact concatenate_pair_apply_left (t := S100000x256) (s₁ := S100000x128) (s₂ := S100000x128) 1 x0 _ _ (ix2 r (lo k)) rfl (ix2 r k) (fun b => by
    match b with
    | ⟨0, _⟩ => rfl
    | ⟨1, _⟩ => rfl)

/-- Column `k` of the second half of the concatenation is the aggregated features' column `k`. -/
theorem cat_hi (r : Fin 100000) (k : Fin 128) :
    val_main_v5 (F := Ideal) x0 x1 x2 (ix2 r (hi k)) = val_main_v4 (F := Ideal) x1 x2 (ix2 r k) := by
  unfold val_main_v5
  exact concatenate_pair_apply_right (t := S100000x256) (s₁ := S100000x128) (s₂ := S100000x128) 1 x0 _ _ (ix2 r (hi k)) rfl rfl (ix2 r k) (fun b hb => by
    match b with
    | ⟨0, _⟩ => rfl
    | ⟨1, _⟩ => exact absurd rfl hb) (by show k.val + 128 = 128 + k.val; omega)

/-! ## The two layers -/

/-- The first layer before its activation. -/
theorem hidden_at (r : Fin 100000) (n : Fin 256) :
    val_main_v9 (F := Ideal) x0 x1 x2 x3 x4 (ix2 r n)
      = MlpNorm.hidden (fun k => x0 (ix2 r k)) (fun k => val_main_v4 (F := Ideal) x1 x2 (ix2 r k)) (fun k n => x3 (ix2 k n))
          (fun n => x4 (ix1 n)) n := by
  have el : ∀ k : Fin 256, lidx_main_v6 (ix2 r n) k = ix2 r k := fun k => funext fun a => Fin.ext (by match a with | ⟨0, _⟩ => rfl | ⟨1, _⟩ => rfl)
  have er : ∀ k : Fin 256, ridx_main_v6 (ix2 r n) k = ix2 k n := fun k => funext fun a => Fin.ext (by match a with | ⟨0, _⟩ => rfl | ⟨1, _⟩ => rfl)
  have eb : idx_main_v7 (idx_main_v8 (ix2 r n)) = ix1 n := funext fun a => Fin.ext (by match a with | ⟨0, _⟩ => rfl)
  rw [val_main_v9_apply, val_main_v6_apply, val_main_v8_apply, val_main_v7_apply]
  simp only [el, er, eb]
  rw [sum_halves]
  simp only [cat_lo, cat_hi]
  rfl

/-- SiLU of the first layer. -/
theorem act_at (r : Fin 100000) (n : Fin 256) :
    val_main_v10 (F := Ideal) x0 x1 x2 x3 x4 (ix2 r n) = silu (val_main_v9 (F := Ideal) x0 x1 x2 x3 x4 (ix2 r n)) := by
  rw [val_main_v10_apply, val_main_call0_v5_apply, val_main_call0_v4_apply, val_main_call0_cst_0_apply, val_main_call0_v3_apply,
    val_main_call0_v2_apply, val_main_call0_cst_apply, val_main_call0_v1_apply, val_main_call0_v0_apply]
  show _ * Ideal.div (Ideal.ofBits .f32 0x3F800000#32) (Ideal.ofBits .f32 0x3F800000#32 + Ideal.exp (-_)) = _
  rw [one_f32]
  rfl

/-- The second layer. -/
theorem proj_at (r : Fin 100000) (j : Fin 128) :
    val_main_v14 (F := Ideal) x0 x1 x2 x3 x4 x5 x6 (ix2 r j)
      = proj (fun n => val_main_v10 (F := Ideal) x0 x1 x2 x3 x4 (ix2 r n)) (fun n j => x5 (ix2 n j)) (fun j => x6 (ix1 j)) j := by
  have el : ∀ k : Fin 256, lidx_main_v11 (ix2 r j) k = ix2 r k := fun k => funext fun a => Fin.ext (by match a with | ⟨0, _⟩ => rfl | ⟨1, _⟩ => rfl)
  have er : ∀ k : Fin 256, ridx_main_v11 (ix2 r j) k = ix2 k j := fun k => funext fun a => Fin.ext (by match a with | ⟨0, _⟩ => rfl | ⟨1, _⟩ => rfl)
  have eb : idx_main_v12 (idx_main_v13 (ix2 r j)) = ix1 j := funext fun a => Fin.ext (by match a with | ⟨0, _⟩ => rfl)
  rw [val_main_v14_apply, val_main_v11_apply, val_main_v13_apply, val_main_v12_apply]
  simp only [el, er, eb]
  rfl

/-! ## The row statistics -/

/-- The row mean, kept as a column. -/
theorem mean_at (r : Fin 100000) :
    val_main_v18 (F := Ideal) x0 x1 x2 x3 x4 x5 x6 (ix2 r (0 : Fin 1)) = mean fun j => val_main_v14 (F := Ideal) x0 x1 x2 x3 x4 x5 x6 (ix2 r j) := by
  have e : ∀ k : Fin 128, idx_main_v15 (idx_main_v16 (ix2 r (0 : Fin 1))) k = ix2 r k := fun k => funext fun a => Fin.ext (by match a with | ⟨0, _⟩ => rfl | ⟨1, _⟩ => rfl)
  rw [val_main_v18_apply, val_main_v17_apply, val_main_cst_1_apply, val_main_v16_apply, val_main_v15_apply, val_main_cst_0_apply]
  simp only [e]
  show Ideal.div (Ideal.ofBits .f32 0x00000000#32 + _) _ = _
  rw [Ideal.ofBits_zero_f32, zero_add]
  rfl

/-- The centred row (the copy the variance squares). -/
theorem centred_at (r : Fin 100000) (j : Fin 128) :
    val_main_v20 (F := Ideal) x0 x1 x2 x3 x4 x5 x6 (ix2 r j) = centred (fun j' => val_main_v14 (F := Ideal) x0 x1 x2 x3 x4 x5 x6 (ix2 r j')) j := by
  have e : idx_main_v19 (ix2 r j) = ix2 r (0 : Fin 1) := funext fun a => Fin.ext (by match a with | ⟨0, _⟩ => rfl | ⟨1, _⟩ => rfl)
  rw [val_main_v20_apply, val_main_v19_apply, e, mean_at]
  rfl

/-- The centred row (the copy that is normalised). -/
theorem centred_at' (r : Fin 100000) (j : Fin 128) :
    val_main_v27 (F := Ideal) x0 x1 x2 x3 x4 x5 x6 (ix2 r j) = centred (fun j' => val_main_v14 (F := Ideal) x0 x1 x2 x3 x4 x5 x6 (ix2 r j')) j := by
  have e : idx_main_v26 (ix2 r j) = ix2 r (0 : Fin 1) := funext fun a => Fin.ext (by match a with | ⟨0, _⟩ => rfl | ⟨1, _⟩ => rfl)
  rw [val_main_v27_apply, val_main_v26_apply, e, mean_at]
  rfl

/-- The row variance, kept as a column. -/
theorem variance_at (r : Fin 100000) :
    val_main_v25 (F := Ideal) x0 x1 x2 x3 x4 x5 x6 (ix2 r (0 : Fin 1)) = variance fun j => val_main_v14 (F := Ideal) x0 x1 x2 x3 x4 x5 x6 (ix2 r j) := by
  have e : ∀ k : Fin 128, idx_main_v22 (idx_main_v23 (ix2 r (0 : Fin 1))) k = ix2 r k := fun k => funext fun a => Fin.ext (by match a with | ⟨0, _⟩ => rfl | ⟨1, _⟩ => rfl)
  rw [val_main_v25_apply, val_main_v24_apply, val_main_cst_3_apply, val_main_v23_apply, val_main_v22_apply, val_main_cst_2_apply]
  simp only [e, val_main_v21_apply, centred_at]
  show Ideal.div (Ideal.ofBits .f32 0x00000000#32 + _) _ = _
  rw [Ideal.ofBits_zero_f32, zero_add]
  rfl

/-! ## The result -/

/-- ENTRY `(r, q)` OF THE REFERENCE'S RESULT is the row function of row `r` of the node features and of the aggregated edge features. -/
theorem result_at (r : Fin 100000) (q : Fin 128) :
    val_main_v39 (F := Ideal) x0 x1 x2 x3 x4 x5 x6 x7 x8 (ix2 r q)
      = rowOut (fun k => x0 (ix2 r k)) (fun k => val_main_v4 (F := Ideal) x1 x2 (ix2 r k)) (fun k n => x3 (ix2 k n)) (fun n => x4 (ix1 n))
          (fun n j => x5 (ix2 n j)) (fun j => x6 (ix1 j)) (fun j => x7 (ix1 j)) (fun j => x8 (ix1 j)) q := by
  have e31 : idx_main_v31 (ix2 r q) = ix2 r (0 : Fin 1) := funext fun a => Fin.ext (by match a with | ⟨0, _⟩ => rfl | ⟨1, _⟩ => rfl)
  have e33 : idx_main_v33 (idx_main_v34 (ix2 r q)) = ix1 q := funext fun a => Fin.ext (by match a with | ⟨0, _⟩ => rfl)
  have e36 : idx_main_v36 (idx_main_v37 (ix2 r q)) = ix1 q := funext fun a => Fin.ext (by match a with | ⟨0, _⟩ => rfl)
  rw [val_main_v39_apply, val_main_v38_apply, val_main_v35_apply, val_main_v32_apply, val_main_v37_apply, val_main_v36_apply,
    val_main_v34_apply, val_main_v33_apply, val_main_v31_apply, val_main_v30_apply, e31, e33, e36, val_main_v29_apply, val_main_v28_apply,
    val_main_cst_4_apply, centred_at', variance_at]
  unfold rowOut normed projRow
  simp only [proj_at, act_at, hidden_at]
  rfl

/-- THE REFERENCE'S RESULT ARRAY is the result function of its argument arrays, the aggregated features being its own
    scatter-sum of the edge features. -/
theorem result_eq (m : (ℓ : Loc nD τ sig) → Buf (Elt Ideal) ℓ) (c : Dev nD) :
    Cert.ReferenceIdeal.Value.res_main_v39 m c
      = result (m ((c.tc : Thread nD τ).loc main_arg0)) (val_main_v4 (F := Ideal) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  rw [val_main_v39_eq]
  funext i
  obtain ⟨r, q, rfl⟩ : ∃ (r : Fin 100000) (q : Fin 128), i = ix2 r q := ⟨i 0, i 1, eq_ix2 i⟩
  rw [result_at, result_ix2]
  rfl

end Cert.ReferenceIdeal.RowValue

end
-- ==== Proof.lean ====
/-
  The proof of `Cert.Claim`: a Pallas kernel that applies a two-layer perceptron with SiLU, LayerNorm and a residual to
  each node's features concatenated with the sum of its incoming edge features, against the plain jax.numpy reference.

  Both programs first compute the same scatter-sum `A` of the edge features by destination node. Then, for node `r`
  with feature row `x` and aggregated row `a`, both compute (Proof/RowSpec.lean)

      h = silu ((x, a) · W1 + b1),   y = h · W2 + b2,   out = (y − mean y) · rsqrt (var y + ε) · γ + β + x.

  The kernel does it on tiles of 5000 rows, one per grid point, and forms `(x, a) · W1` as `x · W1[0:128] + a · W1[128:256]`;
  the reference concatenates and multiplies once. On the extended reals the two differ by a regrouping of one finite sum,
  so the results are equal at every input and the precondition is used only by the frames.

  • Proof/KernelOps.lean, KernelRow.lean: the kernel body's stored tile, entry by entry, is the row function.
  • Proof/TileReads.lean, Blocks.lean: the arrays the region finds, each block as rows of them, the blocks' cover of the
    array, hence the result array after the kernel's run.
  • Proof/RefRow.lean: the reference's result array is the same function of its arguments.
  Here: the scatter-sums of the two programs are one term, the three frames, and the two value claims.
-/
import proofs.«111739_j6133213298854_2_alg».proof.Defs
import proofs.«111739_j6133213298854_2_alg».proof.Proof.Gen.Kernel
import proofs.«111739_j6133213298854_2_alg».proof.Proof.Gen.Kernel.Skeleton
import proofs.«111739_j6133213298854_2_alg».proof.Proof.Gen.Kernel.Launch
import proofs.«111739_j6133213298854_2_alg».proof.Proof.Gen.Kernel.Points
import proofs.«111739_j6133213298854_2_alg».proof.Proof.Gen.Kernel.Frame
import proofs.«111739_j6133213298854_2_alg».proof.Proof.Gen.KernelIdeal
import proofs.«111739_j6133213298854_2_alg».proof.Proof.Gen.KernelIdeal.Skeleton
import proofs.«111739_j6133213298854_2_alg».proof.Proof.Gen.KernelIdeal.Launch
import proofs.«111739_j6133213298854_2_alg».proof.Proof.Gen.KernelIdeal.Points
import proofs.«111739_j6133213298854_2_alg».proof.Proof.Gen.KernelIdeal.Frame
import proofs.«111739_j6133213298854_2_alg».proof.Proof.Gen.ReferenceIdeal
import proofs.«111739_j6133213298854_2_alg».proof.Proof.Gen.Pre_finite_inputs
import proofs.«111739_j6133213298854_2_alg».proof.Proof.Gen.KernelIdeal.Value
import proofs.«111739_j6133213298854_2_alg».proof.Proof.Gen.ReferenceIdeal.Run
import proofs.«111739_j6133213298854_2_alg».proof.Proof.Gen.ReferenceIdeal.Read
import proofs.«111739_j6133213298854_2_alg».proof.Proof.Blocks
import proofs.«111739_j6133213298854_2_alg».proof.Proof.RefRow
import Idealize.ShloMosaic.Adequacy
import Idealize.ShloMosaic.Init

noncomputable section

namespace Cert.Proof

open Idealize.ShloMosaic Idealize.SL.Sem

/-- The kernel's host prefix and the reference compute the aggregated edge features by the same operations on the same
    arguments: one term. -/
theorem agg_eq (x1 : (⟨Cert.KernelIdeal.S2x600000, .i32⟩ : BufTy).Contents (Elt Ideal))
    (x2 : (⟨Cert.KernelIdeal.S600000x128, .f32⟩ : BufTy).Contents (Elt Ideal)) :
    Cert.ReferenceIdeal.Read.val_main_v4 (F := Ideal) x1 x2 = Cert.KernelIdeal.RowValue.agg x1 x2 := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the result function of those
    arguments. -/
theorem algebraic : Cert.algebraic_KernelIdeal_ReferenceIdeal := by
  intro m ρ m' ρ' _ hagree
  refine ⟨fun c => Cert.KernelIdeal.RowValue.kernelResult m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.RowValue.result_eq, h0, h1, h2, h3, h4, h5, h6, h7, h8, agg_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
